-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x512 : Shape := ⟨3, ![128, 512, 512]⟩
abbrev S_ : Shape := ⟨0, ![]⟩

class Facts : Prop where
  bcast_S_S128x512x512 : S_.BroadcastsInDim S128x512x512 (![] : Fin 0 → Fin S128x512x512.rank)
  reducesTo_S128x512x512_S_d0_1_2 : S128x512x512.ReducesTo [0, 1, 2] S_
  h_S_ : 0 < S_.numel

variable [Facts]

def fn {F : FTy → Type} [FloatOps F] (main_arg0 : FVec F S128x512x512 .f32) : IVec S_ 1 :=
  let main_v0 : FVec F S128x512x512 .f32 := Host.absf main_arg0
  let main_cst : FVec F S_ .f32 := constant S_ .f32 0x7F800000#32
  let main_v1 : FVec F S128x512x512 .f32 := broadcastInDim S128x512x512 ![] bcast_S_S128x512x512 main_cst
  let main_v2 : IVec S128x512x512 1 := cmpf .olt main_v0 main_v1
  let main_c : IVec S_ 1 := constantI S_ 1 1#1
  let main_v3 : IVec S_ 1 := (fun x v => Host.reduce IntOp.andi x v reducesTo_S128x512x512_S_d0_1_2 h_S_) main_v2 main_c
  main_v3
-- ==== Kernel.lean ====
abbrev S128x512x512 : Shape := ⟨3, ![128, 512, 512]⟩
abbrev S128x768x768 : Shape := ⟨3, ![128, 768, 768]⟩
abbrev S4x512x512 : Shape := ⟨3, ![4, 512, 512]⟩
abbrev S4x768x768 : Shape := ⟨3, ![4, 768, 768]⟩
abbrev S4x256x768 : Shape := ⟨3, ![4, 256, 768]⟩
abbrev S4x512x256 : Shape := ⟨3, ![4, 512, 256]⟩

abbrev nBuf : Space → Nat
  | .hbm => 2
  | .vmem => 4
  | .smem => 0
  | _ => 0

abbrev bufTy : (tb : Table) → Fin (tcTables nBuf tb) → BufTy
  | .hbm, ⟨0, _⟩ => ⟨S128x512x512, .f32⟩
  | .hbm, ⟨1, _⟩ => ⟨S128x768x768, .f32⟩
  | .local _ .vmem, ⟨0, _⟩ => ⟨S4x512x512, .f32⟩
  | .local _ .vmem, ⟨1, _⟩ => ⟨S4x512x512, .f32⟩
  | .local _ .vmem, ⟨2, _⟩ => ⟨S4x768x768, .f32⟩
  | .local _ .vmem, ⟨3, _⟩ => ⟨S4x768x768, .f32⟩
  | _, _ => ⟨S128x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4x768x768_S4x256x768_0_0_0 : ∀ a, (![0, 0, 0] : Fin 3 → Nat) a + S4x256x768.size a ≤ S4x768x768.size a
  h_S4x256x768 : 0 < S4x256x768.numel
  inb_S4x768x768_S4x512x256_0_256_0 : ∀ a, (![0, 256, 0] : Fin 3 → Nat) a + S4x512x256.size a ≤ S4x768x768.size a
  h_S4x512x256 : 0 < S4x512x256.numel
  inb_S4x512x512_S4x512x512_0_0_0 : ∀ a, (![0, 0, 0] : Fin 3 → Nat) a + S4x512x512.size a ≤ S4x512x512.size a
  h_S4x512x512 : 0 < S4x512x512.numel
  inb_S4x768x768_S4x512x512_0_256_256 : ∀ a, (![0, 256, 256] : Fin 3 → Nat) a + S4x512x512.size a ≤ S4x768x768.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S128x512x512.size a
  hwx0_0 : ∀ i : grid0.Coords, EltTy.bits .f32 = 32 ∨ (Rect.block (s := S128x512x512) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x768x768.size a ≤ S128x768x768.size a
  hwx0_1 : ∀ i : grid0.Coords, EltTy.bits .f32 = 32 ∨ (Rect.block (s := S128x768x768) S4x768x768.size (cc0_transform_1 i) (hinb0_1 i)).WholeWords (EltTy.packing .f32)

variable [Facts₀]

abbrev win0_0 : Pipeline.Window sig grid0 :=
  Pipeline.Window.ofSpec (Memref.whole main_arg0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x768x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x512x512 : Shape := ⟨3, ![128, 512, 512]⟩
abbrev S512 : Shape := ⟨1, ![512]⟩
abbrev S_ : Shape := ⟨0, ![]⟩
abbrev S128x768x768 : Shape := ⟨3, ![128, 768, 768]⟩
abbrev S512x1 : Shape := ⟨2, ![512, 1]⟩
abbrev S1x512 : Shape := ⟨2, ![1, 512]⟩
abbrev S512x512 : Shape := ⟨2, ![512, 512]⟩
abbrev S512x512x1 : Shape := ⟨3, ![512, 512, 1]⟩
abbrev S512x512x2 : Shape := ⟨3, ![512, 512, 2]⟩

abbrev nBuf : Space → Nat
  | .hbm => 142
  | .vmem => 0
  | .smem => 0
  | _ => 0

abbrev hbmTy0_0 (i : Nat) : BufTy := match i % 128 with
  | 0 => ⟨S128x512x512, .f32⟩
  | 1 => ⟨S512, .i32⟩
  | 2 => ⟨S_, .i32⟩
  | 3 => ⟨S_, .i32⟩
  | 4 => ⟨S512, .i32⟩
  | 5 => ⟨S512, .i32⟩
  | 6 => ⟨S512, .i32⟩
  | 7 => ⟨S_, .i32⟩
  | 8 => ⟨S512, .i32⟩
  | 9 => ⟨S512, .i1⟩
  | 10 => ⟨S512, .i32⟩
  | 11 => ⟨S512, .i32⟩
  | 12 => ⟨S_, .i32⟩
  | 13 => ⟨S512, .i32⟩
  | 14 => ⟨S512, .i1⟩
  | 15 => ⟨S512, .i1⟩
  | 16 => ⟨S_, .i32⟩
  | 17 => ⟨S512, .i32⟩
  | 18 => ⟨S512, .i32⟩
  | 19 => ⟨S512, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S512, .i32⟩
  | 27 => ⟨S512, .i32⟩
  | 28 => ⟨S_, .i32⟩
  | 29 => ⟨S512, .i32⟩
  | 30 => ⟨S512, .i1⟩
  | 31 => ⟨S_, .i32⟩
  | 32 => ⟨S512, .i32⟩
  | 33 => ⟨S512, .i1⟩
  | 34 => ⟨S_, .i32⟩
  | 35 => ⟨S_, .i1⟩
  | 36 => ⟨S512, .i1⟩
  | 37 => ⟨S512, .i1⟩
  | 38 => ⟨S512, .i1⟩
  | 39 => ⟨S512, .i32⟩
  | 40 => ⟨S512, .i32⟩
  | 41 => ⟨S512, .i32⟩
  | 42 => ⟨S_, .i32⟩
  | 43 => ⟨S_, .i32⟩
  | 44 => ⟨S512, .i32⟩
  | 45 => ⟨S512, .i32⟩
  | 46 => ⟨S512, .i32⟩
  | 47 => ⟨S_, .i32⟩
  | 48 => ⟨S512, .i32⟩
  | 49 => ⟨S512, .i1⟩
  | 50 => ⟨S512, .i32⟩
  | 51 => ⟨S512, .i32⟩
  | 52 => ⟨S_, .i32⟩
  | 53 => ⟨S512, .i32⟩
  | 54 => ⟨S512, .i1⟩
  | 55 => ⟨S512, .i1⟩
  | 56 => ⟨S_, .i32⟩
  | 57 => ⟨S512, .i32⟩
  | 58 => ⟨S512, .i32⟩
  | 59 => ⟨S512, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S512, .i32⟩
  | 67 => ⟨S512, .i32⟩
  | 68 => ⟨S_, .i32⟩
  | 69 => ⟨S512, .i32⟩
  | 70 => ⟨S512, .i1⟩
  | 71 => ⟨S_, .i32⟩
  | 72 => ⟨S512, .i32⟩
  | 73 => ⟨S512, .i1⟩
  | 74 => ⟨S_, .i32⟩
  | 75 => ⟨S_, .i1⟩
  | 76 => ⟨S512, .i1⟩
  | 77 => ⟨S512, .i1⟩
  | 78 => ⟨S512, .i1⟩
  | 79 => ⟨S512, .i32⟩
  | 80 => ⟨S512, .i32⟩
  | 81 => ⟨S512, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S512, .i32⟩
  | 89 => ⟨S512, .i32⟩
  | 90 => ⟨S_, .i32⟩
  | 91 => ⟨S512, .i32⟩
  | 92 => ⟨S512, .i1⟩
  | 93 => ⟨S_, .i32⟩
  | 94 => ⟨S512, .i32⟩
  | 95 => ⟨S512, .i1⟩
  | 96 => ⟨S_, .i32⟩
  | 97 => ⟨S_, .i1⟩
  | 98 => ⟨S512, .i1⟩
  | 99 => ⟨S512, .i1⟩
  | 100 => ⟨S512, .i1⟩
  | 101 => ⟨S512, .i32⟩
  | 102 => ⟨S512, .i32⟩
  | 103 => ⟨S512, .i32⟩
  | 104 => ⟨S_, .i32⟩
  | 105 => ⟨S512, .i32⟩
  | 106 => ⟨S512, .i32⟩
  | 107 => ⟨S_, .i32⟩
  | 108 => ⟨S512, .i32⟩
  | 109 => ⟨S512, .i32⟩
  | 110 => ⟨S512, .i32⟩
  | 111 => ⟨S_, .i32⟩
  | 112 => ⟨S512, .i32⟩
  | 113 => ⟨S512, .i32⟩
  | 114 => ⟨S_, .i32⟩
  | 115 => ⟨S512, .i32⟩
  | 116 => ⟨S512, .i32⟩
  | 117 => ⟨S512, .i32⟩
  | 118 => ⟨S_, .f32⟩
  | 119 => ⟨S128x768x768, .f32⟩
  | 120 => ⟨S512x1, .i32⟩
  | 121 => ⟨S1x512, .i32⟩
  | 122 => ⟨S_, .i32⟩
  | 123 => ⟨S512x1, .i32⟩
  | 124 => ⟨S512x1, .i1⟩
  | 125 => ⟨S_, .i32⟩
  | 126 => ⟨S512x1, .i32⟩
  | 127 => ⟨S512x1, .i32⟩
  | _ => ⟨S128x512x512, .f32⟩

abbrev hbmTy0_1 (i : Nat) : BufTy := match i % 128 with
  | 0 => ⟨S512x1, .i32⟩
  | 1 => ⟨S_, .i32⟩
  | 2 => ⟨S1x512, .i32⟩
  | 3 => ⟨S1x512, .i1⟩
  | 4 => ⟨S_, .i32⟩
  | 5 => ⟨S1x512, .i32⟩
  | 6 => ⟨S1x512, .i32⟩
  | 7 => ⟨S1x512, .i32⟩
  | 8 => ⟨S512x512, .i32⟩
  | 9 => ⟨S512x512, .i32⟩
  | 10 => ⟨S512x512x1, .i32⟩
  | 11 => ⟨S512x512x1, .i32⟩
  | 12 => ⟨S512x512x2, .i32⟩
  | 13 => ⟨S128x768x768, .f32⟩
  | _ => ⟨S128x512x512, .f32⟩

abbrev hbmTy (i : Nat) : BufTy := match i / 128 with
  | 0 => hbmTy0_0 i
  | 1 => hbmTy0_1 i
  | _ => ⟨S128x512x512, .f32⟩

abbrev bufTy : (tb : Table) → Fin (tcTables nBuf tb) → BufTy
  | .hbm, ⟨i, _⟩ => hbmTy i
  | _, _ => ⟨S128x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v1 : Ref sig .tc := ⟨.hbm, 19, rfl⟩
abbrev main_c_0 : Ref sig .tc := ⟨.hbm, 20, rfl⟩
abbrev main_call1_v0 : Ref sig .tc := ⟨.hbm, 21, rfl⟩
abbrev main_call1_c : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_c_1 : Ref sig .tc := ⟨.hbm, 28, rfl⟩
abbrev main_call1_v5 : Ref sig .tc := ⟨.hbm, 29, rfl⟩
abbrev main_call1_v6 : Ref sig .tc := ⟨.hbm, 30, rfl⟩
abbrev main_call1_c_2 : Ref sig .tc := ⟨.hbm, 31, rfl⟩
abbrev main_call1_v7 : Ref sig .tc := ⟨.hbm, 32, rfl⟩
abbrev main_call1_v8 : Ref sig .tc := ⟨.hbm, 33, rfl⟩
abbrev main_call1_c_3 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_v2 : Ref sig .tc := ⟨.hbm, 41, rfl⟩
abbrev main_c_1 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_c : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_0 : Ref sig .tc := ⟨.hbm, 56, rfl⟩
abbrev main_call2_v12 : Ref sig .tc := ⟨.hbm, 57, rfl⟩
abbrev main_call2_v13 : Ref sig .tc := ⟨.hbm, 58, rfl⟩
abbrev main_v3 : Ref sig .tc := ⟨.hbm, 59, rfl⟩
abbrev main_c_2 : Ref sig .tc := ⟨.hbm, 60, rfl⟩
abbrev main_call3_v0 : Ref sig .tc := ⟨.hbm, 61, rfl⟩
abbrev main_call3_c : Ref sig .tc := ⟨.hbm, 62, rfl⟩
abbrev main_call3_v1 : Ref sig .tc := ⟨.hbm, 63, rfl⟩
abbrev main_call3_c_0 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_c_1 : Ref sig .tc := ⟨.hbm, 68, rfl⟩
abbrev main_call3_v5 : Ref sig .tc := ⟨.hbm, 69, rfl⟩
abbrev main_call3_v6 : Ref sig .tc := ⟨.hbm, 70, rfl⟩
abbrev main_call3_c_2 : Ref sig .tc := ⟨.hbm, 71, rfl⟩
abbrev main_call3_v7 : Ref sig .tc := ⟨.hbm, 72, rfl⟩
abbrev main_call3_v8 : Ref sig .tc := ⟨.hbm, 73, rfl⟩
abbrev main_call3_c_3 : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_v12 : Ref sig .tc := ⟨.hbm, 78, rfl⟩
abbrev main_call3_v13 : Ref sig .tc := ⟨.hbm, 79, rfl⟩
abbrev main_call3_v14 : Ref sig .tc := ⟨.hbm, 80, rfl⟩
abbrev main_v4 : Ref sig .tc := ⟨.hbm, 81, rfl⟩
abbrev main_c_3 : Ref sig .tc := ⟨.hbm, 82, rfl⟩
abbrev main_call4_v0 : Ref sig .tc := ⟨.hbm, 83, rfl⟩
abbrev main_call4_c : Ref sig .tc := ⟨.hbm, 84, rfl⟩
abbrev main_call4_v1 : Ref sig .tc := ⟨.hbm, 85, rfl⟩
abbrev main_call4_c_0 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_call4_c_1 : Ref sig .tc := ⟨.hbm, 90, rfl⟩
abbrev main_call4_v5 : Ref sig .tc := ⟨.hbm, 91, rfl⟩
abbrev main_call4_v6 : Ref sig .tc := ⟨.hbm, 92, rfl⟩
abbrev main_call4_c_2 : Ref sig .tc := ⟨.hbm, 93, rfl⟩
abbrev main_call4_v7 : Ref sig .tc := ⟨.hbm, 94, rfl⟩
abbrev main_call4_v8 : Ref sig .tc := ⟨.hbm, 95, rfl⟩
abbrev main_call4_c_3 : Ref sig .tc := ⟨.hbm, 96, rfl⟩
abbrev main_call4_v9 : Ref sig .tc := ⟨.hbm, 97, rfl⟩
abbrev main_call4_v10 : Ref sig .tc := ⟨.hbm, 98, rfl⟩
abbrev main_call4_v11 : Ref sig .tc := ⟨.hbm, 99, rfl⟩
abbrev main_call4_v12 : Ref sig .tc := ⟨.hbm, 100, rfl⟩
abbrev main_call4_v13 : Ref sig .tc := ⟨.hbm, 101, rfl⟩
abbrev main_call4_v14 : Ref sig .tc := ⟨.hbm, 102, rfl⟩
abbrev main_v5 : Ref sig .tc := ⟨.hbm, 103, rfl⟩
abbrev main_c_4 : Ref sig .tc := ⟨.hbm, 104, rfl⟩
abbrev main_v6 : Ref sig .tc := ⟨.hbm, 105, rfl⟩
abbrev main_v7 : Ref sig .tc := ⟨.hbm, 106, rfl⟩
abbrev main_c_5 : Ref sig .tc := ⟨.hbm, 107, rfl⟩
abbrev main_v8 : Ref sig .tc := ⟨.hbm, 108, rfl⟩
abbrev main_v9 : Ref sig .tc := ⟨.hbm, 109, rfl⟩
abbrev main_v10 : Ref sig .tc := ⟨.hbm, 110, rfl⟩
abbrev main_c_6 : Ref sig .tc := ⟨.hbm, 111, rfl⟩
abbrev main_v11 : Ref sig .tc := ⟨.hbm, 112, rfl⟩
abbrev main_v12 : Ref sig .tc := ⟨.hbm, 113, rfl⟩
abbrev main_c_7 : Ref sig .tc := ⟨.hbm, 114, rfl⟩
abbrev main_v13 : Ref sig .tc := ⟨.hbm, 115, rfl⟩
abbrev main_v14 : Ref sig .tc := ⟨.hbm, 116, rfl⟩
abbrev main_v15 : Ref sig .tc := ⟨.hbm, 117, rfl⟩
abbrev main_cst : Ref sig .tc := ⟨.hbm, 118, rfl⟩
abbrev main_v16 : Ref sig .tc := ⟨.hbm, 119, rfl⟩
abbrev main_v17 : Ref sig .tc := ⟨.hbm, 120, rfl⟩
abbrev main_v18 : Ref sig .tc := ⟨.hbm, 121, rfl⟩
abbrev main_c_8 : Ref sig .tc := ⟨.hbm, 122, rfl⟩
abbrev main_v19 : Ref sig .tc := ⟨.hbm, 123, rfl⟩
abbrev main_v20 : Ref sig .tc := ⟨.hbm, 124, rfl⟩
abbrev main_c_9 : Ref sig .tc := ⟨.hbm, 125, rfl⟩
abbrev main_v21 : Ref sig .tc := ⟨.hbm, 126, rfl⟩
abbrev main_v22 : Ref sig .tc := ⟨.hbm, 127, rfl⟩
abbrev main_v23 : Ref sig .tc := ⟨.hbm, 128, rfl⟩
abbrev main_c_10 : Ref sig .tc := ⟨.hbm, 129, rfl⟩
abbrev main_v24 : Ref sig .tc := ⟨.hbm, 130, rfl⟩
abbrev main_v25 : Ref sig .tc := ⟨.hbm, 131, rfl⟩
abbrev main_c_11 : Ref sig .tc := ⟨.hbm, 132, rfl⟩
abbrev main_v26 : Ref sig .tc := ⟨.hbm, 133, rfl⟩
abbrev main_v27 : Ref sig .tc := ⟨.hbm, 134, rfl⟩
abbrev main_v28 : Ref sig .tc := ⟨.hbm, 135, rfl⟩
abbrev main_v29 : Ref sig .tc := ⟨.hbm, 136, rfl⟩
abbrev main_v30 : Ref sig .tc := ⟨.hbm, 137, rfl⟩
abbrev main_v31 : Ref sig .tc := ⟨.hbm, 138, rfl⟩
abbrev main_v32 : Ref sig .tc := ⟨.hbm, 139, rfl⟩
abbrev main_v33 : Ref sig .tc := ⟨.hbm, 140, rfl⟩
abbrev main_v34 : Ref sig .tc := ⟨.hbm, 141, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S_S128x768x768 : S_.BroadcastsInDim S128x768x768 (![] : Fin 0 → Fin S128x768x768.rank)
  bcast_S512_S512x1_0 : S512.BroadcastsInDim S512x1 (![0] : Fin 1 → Fin S512x1.rank)
  bcast_S512_S1x512_1 : S512.BroadcastsInDim S1x512 (![1] : Fin 1 → Fin S1x512.rank)
  bcast_S_S512x1 : S_.BroadcastsInDim S512x1 (![] : Fin 0 → Fin S512x1.rank)
  bcast_S_S1x512 : S_.BroadcastsInDim S1x512 (![] : Fin 0 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  scatter_S128x768x768_S512x512x2_S128x512x512_0_12_12_2_wf : ScatterDims.WF S128x768x768 S512x512x2 S128x512x512 [0] [1, 2] [1, 2] 2

variable [Facts₀]

def scatter_S128x768x768_S512x512x2_S128x512x512_0_12_12_2 : ScatterDims S128x768x768 S512x512x2 S128x512x512 where
  updateWindowDims := [0]
  insertedWindowDims := [1, 2]
  scatterDimsToOperandDims := [1, 2]
  indexVectorDim := 2
  wf := scatter_S128x768x768_S512x512x2_S128x512x512_0_12_12_2_wf

class Facts : Prop extends Facts₀ where

variable [Facts]
-- ==== Proof.Spec.lean ====
/-
  The result both programs compute, as one function of the argument array: in every batch entry the 512×512 input
  matrix sits in the lower right corner of a 768×768 matrix of zeros, its rows and columns shifted by 256.
  Entry (b, r, c) of the result is the input's entry (b, r - 256, c - 256) when both r and c are at least 256, and
  zero otherwise.
-/
import Idealize.ShloMosaic.PureOps.Ideal
import Idealize.ShloMosaic.Lib.ValueIdx

noncomputable section

namespace Cert.Insert

open Idealize.ShloMosaic Idealize.ShloMosaic.ValueIdx

/-- The input's shape: 128 matrices of 512×512. -/
abbrev Sin : Shape := ⟨3, ![128, 512, 512]⟩
/-- The result's shape: 128 matrices of 768×768. -/
abbrev Sout : Shape := ⟨3, ![128, 768, 768]⟩

/-- The input placed in the lower right corner of zeros: entry (b, r, c) is the input's (b, r - 256, c - 256) when
    256 ≤ r and 256 ≤ c, and zero elsewhere. -/
def placed (rho : Sin.Idx → EReal) : Sout.Idx → EReal := fun i =>
  if 256 ≤ (i 1).val ∧ 256 ≤ (i 2).val then
    rho (ix3 (n0 := 128) (n1 := 512) (n2 := 512) ⟨(i 0).val, (i 0).isLt⟩
      ⟨(i 1).val - 256, by have h : (i 1).val < 768 := (i 1).isLt; omega⟩
      ⟨(i 2).val - 256, by have h : (i 2).val < 768 := (i 2).isLt; omega⟩)
  else 0

/-- Inside the corner the placed array reads the input, shifted back. -/
theorem placed_corner (rho : Sin.Idx → EReal) (b : Fin 128) (r c : Fin 512) :
    placed rho (ix3 (n0 := 128) (n1 := 768) (n2 := 768) b ⟨r.val + 256, by omega⟩ ⟨c.val + 256, by omega⟩)
      = rho (ix3 b r c) := by
  unfold placed
  rw [if_pos ⟨by show 256 ≤ r.val + 256; omega, by show 256 ≤ c.val + 256; omega⟩]
  congr 1

/-- Off the corner it is zero. -/
theorem placed_border (rho : Sin.Idx → EReal) (i : Sout.Idx) (h : (i 1).val < 256 ∨ (i 2).val < 256) :
    placed rho i = 0 := by
  unfold placed
  rw [if_neg (by omega)]

end Cert.Insert

end
-- ==== Proof.KernelSide.lean ====
/-
  The kernel's side of the equivalence: what the kernel's run leaves in the result array, as one function of the input array.

  The grid has 32 points. Point t works on block t of each array: batch rows 4t … 4t+3, all rows and columns — a
  4×512×512 block of the input, a 4×768×768 block of the result. On its block of the result the point makes three stores:
  zeros on rows 0 … 255 (all columns), zeros on rows 256 … 767 at columns 0 … 255, and the input block on rows 256 … 767
  at columns 256 … 767, shifted by 256 in both. The three rectangles share no entry and fill the block, so entry (b, r, c)
  of the block ends as the input block's entry (b, r - 256, c - 256) when r and c are both at least 256, and as zero
  otherwise (`cornerBlock`, `body_block`).

  Block t of that function, taken of block t of the input, is block t of the corner placement of the whole input
  (`cornerBlock_eq_placed`, `input_block`, `written_block`): the shift acts on rows and columns only, the blocks cut the
  batch axis only. Every entry (b, r, c) of the result lies in the block of point b / 4 (`blocks_cover`), so after the last
  point the result array is the corner placement of the input array (`result_array`), and the input array is as it was (`run`).
-/
import proofs.«117784_j24111946399874_2_alg».proof.Proof.Gen.KernelIdeal.Value
import proofs.«117784_j24111946399874_2_alg».proof.Proof.Spec
import Idealize.ShloMosaic.Lib.Pipeline.Value
import Idealize.ShloMosaic.Lib.ValueIdx
import Idealize.ShloMosaic.PureOps.Ideal.Laws

noncomputable section

namespace Cert.Insert.KernelSide

open Cert.KernelIdeal Cert.KernelIdeal.Gen Idealize.ShloMosaic Idealize.ShloMosaic.TcCoe Idealize.SL.Sem
open Idealize.ShloMosaic.Pipeline (Dat)
open Idealize.ShloMosaic.ValueIdx
open Idealize.ShloMosaic.Tactic

/-! ## One block -/

/-- One block of the result as a function of one block of the input: the four 512×512 matrices of the input block, each
    placed in the lower right corner of a 768×768 matrix of zeros. -/
def cornerBlock (x : S4x512x512.Idx → EReal) : S4x768x768.Idx → EReal := fun y =>
  if 256 ≤ (y 1).val ∧ 256 ≤ (y 2).val then
    x (ix3 (n0 := 4) (n1 := 512) (n2 := 512) ⟨(y 0).val, (y 0).isLt⟩
      ⟨(y 1).val - 256, by have h : (y 1).val < 768 := (y 1).isLt; omega⟩
      ⟨(y 2).val - 256, by have h : (y 2).val < 768 := (y 2).isLt; omega⟩)
  else 0

/-- What one grid point leaves in the result's staging buffer, whatever it held before: the corner placement of the
    staged input block. The three stores are restrictions of that one function to their rectangles — on the last store's
    rectangle (rows and columns from 256) it reads the input block shifted back, on the other two (rows below 256; columns
    below 256) it is zero — and the rectangles fill the block. -/
theorem body_block (c : Dev nD) (i : grid0.Coords) (arg1 : Memref sig .tc .vmem S4x512x512 .f32) (harg1 : arg1.IsWhole)
    (arg2 : Memref sig .tc .vmem S4x768x768 .f32) (harg2 : arg2.IsWhole)
    (x0 : Vec Ideal S4x512x512 .f32) :
    Gen.out0_A_1 (F := Ideal) c i arg1 harg1 arg2 harg2 x0 = cornerBlock x0 := by
  funext y
  unfold Gen.out0_A_1
  rw [View.read_writes_junk_eq_canon]
  refine View.canon_apply_of_pieces (Val := Elt Ideal) (cornerBlock x0) _ ?_ y (Gen.cover0_A_1 c i arg1 harg1 arg2 harg2 x0 y)
  unfold Gen.kernelRun0_A
  dsimp only
  sl_unfold_words
  intro p hp
  simp only [List.mem_cons, List.not_mem_nil, or_false] at hp
  rcases hp with rfl | rfl | rfl
  · intro x
    dsimp only
    simp only [View.readAt_eq_ld, harg1.read_unread]
    have h1 : (x 1).val < 512 := (x 1).isLt
    have h2 : (x 2).val < 512 := (x 2).isLt
    have e1 : (((Rect.unit (s := S4x768x768) ![0, 256, 256] ![4, 512, 512] inb_S4x768x768_S4x512x512_0_256_256).emb x) 1).val = 256 + 1 * (x 1).val := rfl
    have e2 : (((Rect.unit (s := S4x768x768) ![0, 256, 256] ![4, 512, 512] inb_S4x768x768_S4x512x512_0_256_256).emb x) 2).val = 256 + 1 * (x 2).val := rfl
    unfold cornerBlock
    rw [if_pos ⟨by omega, by omega⟩]
    refine congrArg x0 (funext fun a => Fin.ext ?_)
    match a with
    | ⟨0, _⟩ => show 0 + 1 * (x 0).val = 0 + 1 * (x 0).val; rfl
    | ⟨1, _⟩ => show 0 + 1 * (x 1).val = (256 + 1 * (x 1).val) - 256; omega
    | ⟨2, _⟩ => show 0 + 1 * (x 2).val = (256 + 1 * (x 2).val) - 256; omega
  · intro x
    dsimp only
    have h2 : (x 2).val < 256 := (x 2).isLt
    have e2 : (((Rect.unit (s := S4x768x768) ![0, 256, 0] ![4, 512, 256] inb_S4x768x768_S4x512x256_0_256_0).emb x) 2).val = 0 + 1 * (x 2).val := rfl
    show Ideal.ofBits .f32 0x00000000#32 = _
    rw [Ideal.ofBits_zero_f32]
    unfold cornerBlock
    rw [if_neg (by omega)]
  · intro x
    dsimp only
    have h1 : (x 1).val < 256 := (x 1).isLt
    have e1 : (((Rect.unit (s := S4x768x768) ![0, 0, 0] ![4, 256, 768] inb_S4x768x768_S4x256x768_0_0_0).emb x) 1).val = 0 + 1 * (x 1).val := rfl
    show Ideal.ofBits .f32 0x00000000#32 = _
    rw [Ideal.ofBits_zero_f32]
    unfold cornerBlock
    rw [if_neg (by omega)]

/-! ## From blocks to the array -/

variable (m : (ℓ : Loc nD τ sig) → Buf (Elt Ideal) ℓ)

/-- Grid point `t` stages block `t` of the input and writes block `t` of the result: both block indices are (t, 0, 0). -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- A block of the corner placement is the corner placement of the matching input block: when the block `x` holds the
    batch rows 4q … 4q+3 of the array `rho`, and the index `k` of the result is batch row 4q + (j 0) at row and column of `j`. -/
theorem cornerBlock_eq_placed (rho : Sin.Idx → EReal) (x : S4x512x512.Idx → EReal) (q : Nat)
    (hx : ∀ (u : S4x512x512.Idx) (v : Sin.Idx), (v 0).val = q * 4 + (u 0).val → (v 1).val = (u 1).val → (v 2).val = (u 2).val → x u = rho v)
    (j : S4x768x768.Idx) (k : Sout.Idx)
    (hk0 : (k 0).val = q * 4 + (j 0).val) (hk1 : (k 1).val = (j 1).val) (hk2 : (k 2).val = (j 2).val) :
    cornerBlock x j = placed rho k := by
  unfold cornerBlock placed
  by_cases h : 256 ≤ (j 1).val ∧ 256 ≤ (j 2).val
  · rw [if_pos h, if_pos (by rw [hk1, hk2]; exact h)]
    refine hx _ _ ?_ ?_ ?_
    · show (k 0).val = q * 4 + (j 0).val; exact hk0
    · show (k 1).val - 256 = (j 1).val - 256; rw [hk1]
    · show (k 2).val - 256 = (j 2).val - 256; rw [hk2]
  · rw [if_neg h, if_neg (by rw [hk1, hk2]; exact h)]

/-- The input block staged at point `t` is batch rows 4t … 4t+3 of the input array. -/
theorem input_block (c : Dev nD) (t : Fin cfg0.N) (u : S4x512x512.Idx) (v : Sin.Idx)
    (h0 : (v 0).val = t.val * 4 + (u 0).val) (h1 : (v 1).val = (u 1).val) (h2 : (v 2).val = (u 2).val) :
    (iblk m c 0 t : Vec Ideal S4x512x512 .f32) u = (V m c main_arg0 : Sin.Idx → EReal) v := by
  obtain ⟨e0, e1, e2, -, -, -⟩ := block_index t
  unfold iblk
  rw [View.read_apply]
  show V m c main_arg0 _ = V m c main_arg0 _
  refine congrArg (V m c main_arg0) (funext fun a => Fin.ext ?_)
  match a with
  | ⟨0, _⟩ => show win0_0.index t (0 : Fin 3) * 4 + 1 * (u 0).val = (v 0).val; rw [e0, h0]; omega
  | ⟨1, _⟩ => show win0_0.index t (1 : Fin 3) * 512 + 1 * (u 1).val = (v 1).val; rw [e1, h1]; omega
  | ⟨2, _⟩ => show win0_0.index t (2 : Fin 3) * 512 + 1 * (u 2).val = (v 2).val; rw [e2, h2]; omega

/-- What point `t` writes back is block `t` of the corner placement of the whole input. -/
theorem written_block (c : Dev nD) (t : Fin cfg0.N) :
    (dats m 0 c).flushed 1 t = ((cfg0.win 1).blk t).view.read (Elt Ideal) (placed (V m c main_arg0)) := by
  rw [Cert.KernelIdeal.Value.flushed1_A, body_block]
  obtain ⟨-, -, -, e0, e1, e2⟩ := block_index t
  funext j
  show cornerBlock (iblk m c 0 t) (win0_1.xinj (grid0.coords t) j) = placed (V m c main_arg0) (((cfg0.win 1).blk t).view.emb j)
  refine cornerBlock_eq_placed (V m c main_arg0) (iblk m c 0 t) t.val (fun u v h0 h1 h2 => input_block m c t u v h0 h1 h2) _ _ ?_ ?_ ?_
  · show win0_1.index t (0 : Fin 3) * 4 + 1 * (j 0).val = t.val * 4 + (j 0).val; rw [e0]; omega
  · show win0_1.index t (1 : Fin 3) * 768 + 1 * (j 1).val = (j 1).val; rw [e1]; omega
  · show win0_1.index t (2 : Fin 3) * 768 + 1 * (j 2).val = (j 2).val; rw [e2]; omega

/-- Every entry of the result lies in the block of the point that owns its batch row: entry (b, r, c) is in block b / 4,
    which holds batch rows 4 (b / 4) … 4 (b / 4) + 3 and every row and column. -/
theorem blocks_cover (i : Sout.Idx) :
    ∃ t : Fin cfg0.N, (cfg0.win 1).flush t = true ∧ i ∈ ((cfg0.win 1).blk t).view.set := by
  have hb : (i 0).val < 128 := (i 0).isLt
  have hr : (i 1).val < 768 := (i 1).isLt
  have hc : (i 2).val < 768 := (i 2).isLt
  have hN : cfg0.N = 32 := N_0
  obtain ⟨t, ht⟩ : ∃ t : Fin cfg0.N, t.val = (i 0).val / 4 := ⟨⟨(i 0).val / 4, by omega⟩, rfl⟩
  obtain ⟨-, -, -, e0, e1, e2⟩ := block_index t
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 3) * 4 ≤ (i 0).val ∧ (i 0).val < win0_1.index t (0 : Fin 3) * 4 + 4; rw [e0, ht]; omega
  | ⟨1, _⟩ => show win0_1.index t (1 : Fin 3) * 768 ≤ (i 1).val ∧ (i 1).val < win0_1.index t (1 : Fin 3) * 768 + 768; rw [e1]; omega
  | ⟨2, _⟩ => show win0_1.index t (2 : Fin 3) * 768 ≤ (i 2).val ∧ (i 2).val < win0_1.index t (2 : Fin 3) * 768 + 768; rw [e2]; omega

/-- After the last point the result array is the corner placement of the input array. -/
theorem result_array (c : Dev nD) : (dats m 0 c).arrAt 1 cfg0.N = placed (V m c main_arg0) :=
  (dats m 0 c).arrAt_eq_of_cover 1 (placed (V m c main_arg0)) (fun t _ => written_block m c t) blocks_cover

/-- The kernel's run: the result array ends as the input placed in the corner of zeros, the input array as it was. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v0) = Cert.Insert.placed (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) :=
  (θ_run defs _ _).mono (fun r h c => ⟨(h c).1.trans (result_array m c), (h c).2⟩) (Cert.KernelIdeal.Value.run_blocks m ρ)

end Cert.Insert.KernelSide

end
-- ==== Proof.LibAfterAppend.lean ====
/-
  Running two straight lines of host operations one after the other is running their concatenation: the
  buffer contents after `l₁ ++ l₂` from `V` are the contents after `l₂` from the contents after `l₁` from `V`.
  It lets the value a long line leaves in a buffer be computed in pieces: the part of the line that produces an
  intermediate value, then the part that consumes it, each over an arbitrary starting valuation.
-/
import Idealize.ShloMosaic.Lib.StableHlo.Run

namespace Idealize.ShloMosaic.StableHlo

variable {τ : Topo} {sig : RefSig} {Val : EltTy → Type}

/-- The contents after a concatenation are the contents after the second line, started from the contents after
    the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Every operation of a concatenation has a property when every operation of each part has it. -/
theorem forall_append {p : HloOp τ sig Val → Prop} {l₁ l₂ : List (HloOp τ sig Val)}
    (h₁ : l₁.Forall p) (h₂ : l₂.Forall p) : (l₁ ++ l₂).Forall p :=
  List.forall_iff_forall_mem.2 fun op hop =>
    (List.mem_append.1 hop).elim (List.forall_iff_forall_mem.1 h₁ op) (List.forall_iff_forall_mem.1 h₂ op)

end Idealize.ShloMosaic.StableHlo
-- ==== Proof.RefRun.lean ====
/-
  The reference program as a straight line of host operations, and its run.

  The reference builds a 512-vector of integer positions, position x ↦ (x mod 64) / 8 · 8 + (x mod 64) mod 8
  + (x / 64 + 4) · 64, through jnp's floor division and remainder (each an outlined function whose operations
  act on the buffers of one call), turns it into the 512×512×2 table of (row, column) targets, and scatter-adds
  the input into a 768×768 array of zeros per batch entry at those targets. Here the program is listed as its
  operations in order, cut into the seven stretches that each produce one named intermediate value; the list is
  shown to be the program itself, and the library's theorem on straight lines then says that every execution
  ends with each buffer at the fold of the operations over the launch contents.
-/
import proofs.«117784_j24111946399874_2_alg».proof.Proof.Gen.ReferenceIdeal
import proofs.«117784_j24111946399874_2_alg».proof.Proof.LibAfterAppend
import Idealize.ShloMosaic.Lib.StableHlo.Run
import Idealize.ShloMosaic.PureOps.Ideal

noncomputable section

namespace Cert.Insert.RefRun

open Cert.ReferenceIdeal Cert.ReferenceIdeal.Gen Idealize.ShloMosaic Idealize.ShloMosaic.TcCoe Idealize.SL.Sem
open Idealize.ShloMosaic.StableHlo

/-- One call of jnp's floor division of a 512-vector by a scalar, as its seventeen operations on the call's
    buffers: the truncated quotient, corrected by one where the signs differ and the remainder is not zero. -/
abbrev floorDivideOps (arg0 : TRef sig ⟨S512, .i32⟩) (arg1 : TRef sig ⟨S_, .i32⟩) (φ : fn_floor_divide.Bufs) :
    List (HloOp τ sig (Elt Ideal)) :=
  [ TRef.unary arg1 φ.v0 id,
    TRef.unary φ.v0 φ.v1 (broadcastInDim S512 ![] bcast_S_S512),
    TRef.binary arg0 φ.v1 φ.v2 Host.divsi,
    TRef.unary arg0 φ.v3 signi,
    TRef.unary φ.v0 φ.v4 signi,
    TRef.unary φ.v4 φ.v5 (broadcastInDim S512 ![] bcast_S_S512),
    TRef.binary φ.v3 φ.v5 φ.v6 (cmpi .ne),
    TRef.unary φ.v0 φ.v7 (broadcastInDim S512 ![] bcast_S_S512),
    TRef.binary arg0 φ.v7 φ.v8 Host.remsi,
    TRef.nullary φ.c (constantI S_ 32 0#32),
    TRef.unary φ.c φ.v9 (broadcastInDim S512 ![] bcast_S_S512),
    TRef.binary φ.v8 φ.v9 φ.v10 (cmpi .ne),
    TRef.binary φ.v6 φ.v10 φ.v11 andi,
    TRef.nullary φ.c_0 (constantI S_ 32 1#32),
    TRef.unary φ.c_0 φ.v12 (broadcastInDim S512 ![] bcast_S_S512),
    TRef.binary φ.v2 φ.v12 φ.v13 subi,
    TRef.ternary φ.v11 φ.v13 φ.v2 φ.call0.v0 select ]

/-- One call of jnp's remainder of a 512-vector by a scalar, as its twenty-one operations on the call's buffers:
    the truncated remainder by the divisor (by one where the divisor is zero), moved by the divisor where it is
    not zero and its sign differs from the divisor's. -/
abbrev remainderOps (arg0 : TRef sig ⟨S512, .i32⟩) (arg1 : TRef sig ⟨S_, .i32⟩) (φ : fn_remainder.Bufs) :
    List (HloOp τ sig (Elt Ideal)) :=
  [ TRef.unary arg1 φ.v0 id,
    TRef.nullary φ.c (constantI S_ 32 0#32),
    TRef.binary φ.v0 φ.c φ.v1 (cmpi .eq),
    TRef.nullary φ.c_0 (constantI S_ 32 1#32),
    TRef.ternary φ.v1 φ.c_0 φ.v0 φ.call0.v0 select,
    TRef.unary φ.call0.v0 φ.v3 (broadcastInDim S512 ![] bcast_S_S512),
    TRef.binary arg0 φ.v3 φ.v4 Host.remsi,
    TRef.nullary φ.c_1 (constantI S_ 32 0#32),
    TRef.unary φ.c_1 φ.v5 (broadcastInDim S512 ![] bcast_S_S512),
    TRef.binary φ.v4 φ.v5 φ.v6 (cmpi .ne),
    TRef.nullary φ.c_2 (constantI S_ 32 0#32),
    TRef.unary φ.c_2 φ.v7 (broadcastInDim S512 ![] bcast_S_S512),
    TRef.binary φ.v4 φ.v7 φ.v8 (cmpi .slt),
    TRef.nullary φ.c_3 (constantI S_ 32 0#32),
    TRef.binary φ.call0.v0 φ.c_3 φ.v9 (cmpi .slt),
    TRef.unary φ.v9 φ.v10 (broadcastInDim S512 ![] bcast_S_S512),
    TRef.binary φ.v8 φ.v10 φ.v11 (cmpi .ne),
    TRef.binary φ.v11 φ.v6 φ.v12 andi,
    TRef.unary φ.call0.v0 φ.v13 (broadcastInDim S512 ![] bcast_S_S512),
    TRef.binary φ.v4 φ.v13 φ.v14 addi,
    TRef.ternary φ.v12 φ.v14 φ.v4 φ.v15 select ]

/-- The positions 0 … 511 and their floor quotient by 64. -/
abbrev ops1 : List (HloOp τ sig (Elt Ideal)) :=
  [ nullary main_v0 (iotaInDim S512 32 0),
    nullary main_c (constantI S_ 32 64#32) ] ++ floorDivideOps (.of main_v0) (.of main_c) main_call0
/-- Their remainder by 64. -/
abbrev ops2 : List (HloOp τ sig (Elt Ideal)) :=
  [ nullary main_c_0 (constantI S_ 32 64#32) ] ++ remainderOps (.of main_v0) (.of main_c_0) main_call1
/-- That remainder's floor quotient by 8. -/
abbrev ops3 : List (HloOp τ sig (Elt Ideal)) :=
  [ nullary main_c_1 (constantI S_ 32 8#32) ] ++ floorDivideOps (.of main_v2) (.of main_c_1) main_call2
/-- The remainder by 64 again, -/
abbrev ops4 : List (HloOp τ sig (Elt Ideal)) :=
  [ nullary main_c_2 (constantI S_ 32 64#32) ] ++ remainderOps (.of main_v0) (.of main_c_2) main_call3
/-- and its remainder by 8. -/
abbrev ops5 : List (HloOp τ sig (Elt Ideal)) :=
  [ nullary main_c_3 (constantI S_ 32 8#32) ] ++ remainderOps (.of main_v4) (.of main_c_3) main_call4
/-- The target positions put together: quotient-by-8 times 8, plus the remainder by 8, plus (quotient-by-64 plus 4)
    times 8 times 8. -/
abbrev ops6 : List (HloOp τ sig (Elt Ideal)) :=
  [
    nullary main_c_4 (constantI S_ 32 4#32),
    unary main_c_4 main_v6 (broadcastInDim S512 ![] bcast_S_S512 : (⟨S_, .i32⟩ : BufTy).Contents (Elt Ideal) → (⟨S512, .i32⟩ : BufTy).Contents (Elt Ideal)),
    binary main_v1 main_v6 main_v7 (addi : (⟨S512, .i32⟩ : BufTy).Contents (Elt Ideal) → (⟨S512, .i32⟩ : BufTy).Contents (Elt Ideal) → (⟨S512, .i32⟩ : BufTy).Contents (Elt Ideal)),
    nullary main_c_5 (constantI S_ 32 8#32),
    unary main_c_5 main_v8 (broadcastInDim S512 ![] bcast_S_S512 : (⟨S_, .i32⟩ : BufTy).Contents (Elt Ideal) → (⟨S512, .i32⟩ : BufTy).Contents (Elt Ideal)),
    binary main_v3 main_v8 main_v9 (muli : (⟨S512, .i32⟩ : BufTy).Contents (Elt Ideal) → (⟨S512, .i32⟩ : BufTy).Contents (Elt Ideal) → (⟨S512, .i32⟩ : BufTy).Contents (Elt Ideal)),
    binary main_v9 main_v5 main_v10 (addi : (⟨S512, .i32⟩ : BufTy).Contents (Elt Ideal) → (⟨S512, .i32⟩ : BufTy).Contents (Elt Ideal) → (⟨S512, .i32⟩ : BufTy).Contents (Elt Ideal)),
    nullary main_c_6 (constantI S_ 32 8#32),
    unary main_c_6 main_v11 (broadcastInDim S512 ![] bcast_S_S512 : (⟨S_, .i32⟩ : BufTy).Contents (Elt Ideal) → (⟨S512, .i32⟩ : BufTy).Contents (Elt Ideal)),
    binary main_v7 main_v11 main_v12 (muli : (⟨S512, .i32⟩ : BufTy).Contents (Elt Ideal) → (⟨S512, .i32⟩ : BufTy).Contents (Elt Ideal) → (⟨S512, .i32⟩ : BufTy).Contents (Elt Ideal)),
    nullary main_c_7 (constantI S_ 32 8#32),
    unary main_c_7 main_v13 (broadcastInDim S512 ![] bcast_S_S512 : (⟨S_, .i32⟩ : BufTy).Contents (Elt Ideal) → (⟨S512, .i32⟩ : BufTy).Contents (Elt Ideal)),
    binary main_v12 main_v13 main_v14 (muli : (⟨S512, .i32⟩ : BufTy).Contents (Elt Ideal) → (⟨S512, .i32⟩ : BufTy).Contents (Elt Ideal) → (⟨S512, .i32⟩ : BufTy).Contents (Elt Ideal)),
    binary main_v10 main_v14 main_v15 (addi : (⟨S512, .i32⟩ : BufTy).Contents (Elt Ideal) → (⟨S512, .i32⟩ : BufTy).Contents (Elt Ideal) → (⟨S512, .i32⟩ : BufTy).Contents (Elt Ideal)) ]
/-- The zeros, the targets as a column and as a row (each wrapped by 768 where negative), broadcast to the 512×512 table
    of (row, column) pairs, and the scatter-add of the input into the zeros at those pairs. -/
abbrev ops7 : List (HloOp τ sig (Elt Ideal)) :=
  [
    nullary main_cst (constant (F := Ideal) S_ .f32 0x00000000#32),
    unary main_cst main_v16 (broadcastInDim S128x768x768 ![] bcast_S_S128x768x768 : (⟨S_, .f32⟩ : BufTy).Contents (Elt Ideal) → (⟨S128x768x768, .f32⟩ : BufTy).Contents (Elt Ideal)),
    unary main_v15 main_v17 (broadcastInDim S512x1 ![0] bcast_S512_S512x1_0 : (⟨S512, .i32⟩ : BufTy).Contents (Elt Ideal) → (⟨S512x1, .i32⟩ : BufTy).Contents (Elt Ideal)),
    unary main_v15 main_v18 (broadcastInDim S1x512 ![1] bcast_S512_S1x512_1 : (⟨S512, .i32⟩ : BufTy).Contents (Elt Ideal) → (⟨S1x512, .i32⟩ : BufTy).Contents (Elt Ideal)),
    nullary main_c_8 (constantI S_ 32 0#32),
    unary main_c_8 main_v19 (broadcastInDim S512x1 ![] bcast_S_S512x1 : (⟨S_, .i32⟩ : BufTy).Contents (Elt Ideal) → (⟨S512x1, .i32⟩ : BufTy).Contents (Elt Ideal)),
    binary main_v17 main_v19 main_v20 (cmpi .slt : (⟨S512x1, .i32⟩ : BufTy).Contents (Elt Ideal) → (⟨S512x1, .i32⟩ : BufTy).Contents (Elt Ideal) → (⟨S512x1, .i1⟩ : BufTy).Contents (Elt Ideal)),
    nullary main_c_9 (constantI S_ 32 768#32),
    unary main_c_9 main_v21 (broadcastInDim S512x1 ![] bcast_S_S512x1 : (⟨S_, .i32⟩ : BufTy).Contents (Elt Ideal) → (⟨S512x1, .i32⟩ : BufTy).Contents (Elt Ideal)),
    binary main_v17 main_v21 main_v22 (addi : (⟨S512x1, .i32⟩ : BufTy).Contents (Elt Ideal) → (⟨S512x1, .i32⟩ : BufTy).Contents (Elt Ideal) → (⟨S512x1, .i32⟩ : BufTy).Contents (Elt Ideal)),
    ternary main_v20 main_v22 main_v17 main_v23 (select : (⟨S512x1, .i1⟩ : BufTy).Contents (Elt Ideal) → (⟨S512x1, .i32⟩ : BufTy).Contents (Elt Ideal) → (⟨S512x1, .i32⟩ : BufTy).Contents (Elt Ideal) → (⟨S512x1, .i32⟩ : BufTy).Contents (Elt Ideal)),
    nullary main_c_10 (constantI S_ 32 0#32),
    unary main_c_10 main_v24 (broadcastInDim S1x512 ![] bcast_S_S1x512 : (⟨S_, .i32⟩ : BufTy).Contents (Elt Ideal) → (⟨S1x512, .i32⟩ : BufTy).Contents (Elt Ideal)),
    binary main_v18 main_v24 main_v25 (cmpi .slt : (⟨S1x512, .i32⟩ : BufTy).Contents (Elt Ideal) → (⟨S1x512, .i32⟩ : BufTy).Contents (Elt Ideal) → (⟨S1x512, .i1⟩ : BufTy).Contents (Elt Ideal)),
    nullary main_c_11 (constantI S_ 32 768#32),
    unary main_c_11 main_v26 (broadcastInDim S1x512 ![] bcast_S_S1x512 : (⟨S_, .i32⟩ : BufTy).Contents (Elt Ideal) → (⟨S1x512, .i32⟩ : BufTy).Contents (Elt Ideal)),
    binary main_v18 main_v26 main_v27 (addi : (⟨S1x512, .i32⟩ : BufTy).Contents (Elt Ideal) → (⟨S1x512, .i32⟩ : BufTy).Contents (Elt Ideal) → (⟨S1x512, .i32⟩ : BufTy).Contents (Elt Ideal)),
    ternary main_v25 main_v27 main_v18 main_v28 (select : (⟨S1x512, .i1⟩ : BufTy).Contents (Elt Ideal) → (⟨S1x512, .i32⟩ : BufTy).Contents (Elt Ideal) → (⟨S1x512, .i32⟩ : BufTy).Contents (Elt Ideal) → (⟨S1x512, .i32⟩ : BufTy).Contents (Elt Ideal)),
    unary main_v23 main_v29 (broadcastInDim S512x512 ![0, 1] bcast_S512x1_S512x512_0_1 : (⟨S512x1, .i32⟩ : BufTy).Contents (Elt Ideal) → (⟨S512x512, .i32⟩ : BufTy).Contents (Elt Ideal)),
    unary main_v28 main_v30 (broadcastInDim S512x512 ![0, 1] bcast_S1x512_S512x512_0_1 : (⟨S1x512, .i32⟩ : BufTy).Contents (Elt Ideal) → (⟨S512x512, .i32⟩ : BufTy).Contents (Elt Ideal)),
    unary main_v29 main_v31 (broadcastInDim S512x512x1 ![0, 1] bcast_S512x512_S512x512x1_0_1 : (⟨S512x512, .i32⟩ : BufTy).Contents (Elt Ideal) → (⟨S512x512x1, .i32⟩ : BufTy).Contents (Elt Ideal)),
    unary main_v30 main_v32 (broadcastInDim S512x512x1 ![0, 1] bcast_S512x512_S512x512x1_0_1 : (⟨S512x512, .i32⟩ : BufTy).Contents (Elt Ideal) → (⟨S512x512x1, .i32⟩ : BufTy).Contents (Elt Ideal)),
    binary main_v31 main_v32 main_v33 ((fun a b => concatenate S512x512x2 2 [⟨S512x512x1, a⟩, ⟨S512x512x1, b⟩] concatenates_S512x512x1_S512x512x1_S512x512x2_d2) : (⟨S512x512x1, .i32⟩ : BufTy).Contents (Elt Ideal) → (⟨S512x512x1, .i32⟩ : BufTy).Contents (Elt Ideal) → (⟨S512x512x2, .i32⟩ : BufTy).Contents (Elt Ideal)),
    ternary main_v16 main_v33 main_arg0 main_v34 ((fun x i u => Host.scatterAdd (F := Ideal) (φ := .f32) scatter_S128x768x768_S512x512x2_S128x512x512_0_12_12_2 x i u) : (⟨S128x768x768, .f32⟩ : BufTy).Contents (Elt Ideal) → (⟨S512x512x2, .i32⟩ : BufTy).Contents (Elt Ideal) → (⟨S128x512x512, .f32⟩ : BufTy).Contents (Elt Ideal) → (⟨S128x768x768, .f32⟩ : BufTy).Contents (Elt Ideal)) ]

/-- The reference's operations, in order. -/
abbrev ops : List (HloOp τ sig (Elt Ideal)) := ops1 ++ (ops2 ++ (ops3 ++ (ops4 ++ (ops5 ++ (ops6 ++ ops7)))))

-- about a hundred and fifty binds re-associated: the rewrite under the chain recurses once per statement
set_option maxRecDepth 8192 in
/-- The program is that straight line: the outlined functions unfolded at their calls, sequencing re-associated. -/
theorem main_eq (c : Dev nD) : main (F := Ideal) c = seq ops := by
  simp only [main, fn_floor_divide.body, fn_remainder.body, fn_where.body, fn_where_0.body, ops, ops1, ops2, ops3, ops4, ops5,
    ops6, ops7, floorDivideOps, remainderOps, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of a floor division touches only device buffers. -/
theorem floorDivideOps_sub (a : TRef sig ⟨S512, .i32⟩) (b : TRef sig ⟨S_, .i32⟩) (φ : fn_floor_divide.Bufs) :
    (floorDivideOps a b φ).Forall fun op => op.bufs ⊆ tcRefs τ sig :=
  ⟨unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..⟩

/-- Every operation of a remainder touches only device buffers. -/
theorem remainderOps_sub (a : TRef sig ⟨S512, .i32⟩) (b : TRef sig ⟨S_, .i32⟩) (φ : fn_remainder.Bufs) :
    (remainderOps a b φ).Forall fun op => op.bufs ⊆ tcRefs τ sig :=
  ⟨unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..⟩

theorem ops6_sub : (ops6).Forall fun op => op.bufs ⊆ tcRefs τ sig :=
  ⟨nullary_bufs_sub .., unary_bufs_sub .., binary_bufs_sub .., nullary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub ..⟩

theorem ops7_sub : (ops7).Forall fun op => op.bufs ⊆ tcRefs τ sig :=
  ⟨nullary_bufs_sub .., unary_bufs_sub .., unary_bufs_sub .., unary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., unary_bufs_sub .., unary_bufs_sub .., binary_bufs_sub .., ternary_bufs_sub ..⟩

/-- Every operation of the line touches only device buffers. -/
theorem ops_sub : (ops).Forall fun op => op.bufs ⊆ tcRefs τ sig :=
  forall_append (forall_append ⟨nullary_bufs_sub .., nullary_bufs_sub ..⟩ (floorDivideOps_sub ..))
  (forall_append (forall_append (l₁ := [_]) (nullary_bufs_sub ..) (remainderOps_sub ..))
  (forall_append (forall_append (l₁ := [_]) (nullary_bufs_sub ..) (floorDivideOps_sub ..))
  (forall_append (forall_append (l₁ := [_]) (nullary_bufs_sub ..) (remainderOps_sub ..))
  (forall_append (forall_append (l₁ := [_]) (nullary_bufs_sub ..) (remainderOps_sub ..))
  (forall_append ops6_sub ops7_sub)))))

/-- Every operation of the line determines what it writes. -/
theorem ops_fresh : ∀ op ∈ ops, op.fresh = ∅ := by
  intro op h
  simp only [ops, ops1, ops2, ops3, ops4, ops5, ops6, ops7, floorDivideOps, remainderOps, List.cons_append, List.nil_append] at h
  repeat (cases h with | head => rfl | tail _ h => ?_)
  exact nomatch h

/-- Every weakly fair execution of the reference terminates, and every final state has each buffer at the fold of the
    operations over the launch contents. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.Insert.RefRun

end
-- ==== Proof.RefTerms.lean ====
/-
  The reference's values as pure functions, and what they are index by index.

  jnp's floor division and remainder of a 512-vector by a scalar, as the operations compute them; the vector of
  target positions the reference builds from the positions 0 … 511; the 512×512×2 table that pairs target row and
  target column; and the scatter-add of an input into zeros at that table. The target of position x is
  (x mod 64) / 8 · 8 + (x mod 64) mod 8 + (x / 64 + 4) · 64 = x + 256: checked here for each of the 512 positions
  by evaluation. So the table's entry (r, c) is the pair (r + 256, c + 256), no wrap by 768 occurring since no
  target is negative.
-/
import proofs.«117784_j24111946399874_2_alg».proof.Proof.Gen.ReferenceIdeal
import Idealize.ShloMosaic.PureOps.Ideal
import Idealize.ShloMosaic.Lib.ValueIdx
import Idealize.ShloMosaic.Lib.Pipeline.Value

noncomputable section

namespace Cert.Insert.RefTerms

open Cert.ReferenceIdeal Cert.ReferenceIdeal.Gen Idealize.ShloMosaic Idealize.ShloMosaic.ValueIdx

/-- A scalar broadcast to a 512-vector. -/
abbrev splat {α : Type} (d : S_.Idx → α) : S512.Idx → α := broadcastInDim S512 ![] bcast_S_S512 d

/-- jnp's floor division of a vector by a scalar: the truncated quotient, less one where the operands' signs differ
    and the truncated remainder is not zero. -/
def floorDiv (x : IVec S512 32) (d : IVec S_ 32) : IVec S512 32 :=
  select (andi (cmpi .ne (signi x) (splat (signi d))) (cmpi .ne (Host.remsi x (splat d)) (splat (constantI S_ 32 0#32))))
    (subi (Host.divsi x (splat d)) (splat (constantI S_ 32 1#32))) (Host.divsi x (splat d))

/-- The divisor jnp's remainder really divides by: one in place of zero. -/
def safeDivisor (d : IVec S_ 32) : IVec S_ 32 := select (cmpi .eq d (constantI S_ 32 0#32)) (constantI S_ 32 1#32) d

/-- jnp's remainder of a vector by a scalar: the truncated remainder, plus the divisor where that remainder is not zero
    and its sign differs from the divisor's. -/
def remainder (x : IVec S512 32) (d : IVec S_ 32) : IVec S512 32 :=
  select
    (andi (cmpi .ne (cmpi .slt (Host.remsi x (splat (safeDivisor d))) (splat (constantI S_ 32 0#32)))
        (splat (cmpi .slt (safeDivisor d) (constantI S_ 32 0#32))))
      (cmpi .ne (Host.remsi x (splat (safeDivisor d))) (splat (constantI S_ 32 0#32))))
    (addi (Host.remsi x (splat (safeDivisor d))) (splat (safeDivisor d)))
    (Host.remsi x (splat (safeDivisor d)))

/-- The positions 0 … 511. -/
def positions : IVec S512 32 := iotaInDim S512 32 0

/-- The target from the three digits: the quotient by 8 times 8, plus the remainder by 8, plus the quotient by 64
    moved up four and multiplied by 8 twice. -/
def combine (q64 q8 r8 : IVec S512 32) : IVec S512 32 :=
  addi (addi (muli q8 (splat (constantI S_ 32 8#32))) r8)
    (muli (muli (addi q64 (splat (constantI S_ 32 4#32))) (splat (constantI S_ 32 8#32))) (splat (constantI S_ 32 8#32)))

/-- The target positions. -/
def targets : IVec S512 32 :=
  combine (floorDiv positions (constantI S_ 32 64#32))
    (floorDiv (remainder positions (constantI S_ 32 64#32)) (constantI S_ 32 8#32))
    (remainder (remainder positions (constantI S_ 32 64#32)) (constantI S_ 32 8#32))

/-- A target as jnp reads a scatter index: 768 more where negative. -/
def wrap (x : BitVec 32) : BitVec 32 := Scalar.select (IntOp.cmpi .slt x 0#32) (IntOp.addi x 768#32) x

/-- The targets as a column, wrapped. -/
def wrappedColumn (t : IVec S512 32) : IVec S512x1 32 :=
  select (cmpi .slt (broadcastInDim S512x1 ![0] bcast_S512_S512x1_0 t) (broadcastInDim S512x1 ![] bcast_S_S512x1 (constantI S_ 32 0#32)))
    (addi (broadcastInDim S512x1 ![0] bcast_S512_S512x1_0 t) (broadcastInDim S512x1 ![] bcast_S_S512x1 (constantI S_ 32 768#32)))
    (broadcastInDim S512x1 ![0] bcast_S512_S512x1_0 t)

/-- The targets as a row, wrapped. -/
def wrappedRow (t : IVec S512 32) : IVec S1x512 32 :=
  select (cmpi .slt (broadcastInDim S1x512 ![1] bcast_S512_S1x512_1 t) (broadcastInDim S1x512 ![] bcast_S_S1x512 (constantI S_ 32 0#32)))
    (addi (broadcastInDim S1x512 ![1] bcast_S512_S1x512_1 t) (broadcastInDim S1x512 ![] bcast_S_S1x512 (constantI S_ 32 768#32)))
    (broadcastInDim S1x512 ![1] bcast_S512_S1x512_1 t)

/-- The table of (target row, target column) pairs: entry (r, c, 0) the wrapped target of r, entry (r, c, 1) that of c. -/
def table (t : IVec S512 32) : IVec S512x512x2 32 :=
  concatenate S512x512x2 2
    [⟨S512x512x1, broadcastInDim S512x512x1 ![0, 1] bcast_S512x512_S512x512x1_0_1
        (broadcastInDim S512x512 ![0, 1] bcast_S512x1_S512x512_0_1 (wrappedColumn t))⟩,
     ⟨S512x512x1, broadcastInDim S512x512x1 ![0, 1] bcast_S512x512_S512x512x1_0_1
        (broadcastInDim S512x512 ![0, 1] bcast_S1x512_S512x512_0_1 (wrappedRow t))⟩]
    concatenates_S512x512x1_S512x512x1_S512x512x2_d2

/-- The array of zeros the reference scatters into. -/
def zeros : FVec Ideal S128x768x768 .f32 :=
  broadcastInDim S128x768x768 ![] bcast_S_S128x768x768 (constant (F := Ideal) S_ .f32 0x00000000#32)

/-- The reference's result from its input: the input scatter-added into zeros at the table of targets. -/
def result (rho : FVec Ideal S128x512x512 .f32) : FVec Ideal S128x768x768 .f32 :=
  Host.scatterAdd (F := Ideal) (φ := .f32) scatter_S128x768x768_S512x512x2_S128x512x512_0_12_12_2 zeros (table targets) rho

/-! ## The targets, position by position -/

/-- The wrapped target of position x is x + 256: evaluated at each of the 512 positions. -/
theorem wrap_targets : ∀ r : Fin 512, wrap (targets (ix1 r)) = BitVec.ofNat 32 (r.val + 256) := by
  decide +kernel

/-- Read as a signed number, the word of x + 256 is x + 256 (x below 512). -/
theorem toInt_shifted : ∀ r : Fin 512, (BitVec.ofNat 32 (r.val + 256)).toInt = ((r.val + 256 : Nat) : Int) := by
  decide +kernel

/-! ## The table, entry by entry -/

/-- The wrapped column at row r is the wrapped entry r. -/
theorem wrappedColumn_apply (t : IVec S512 32) (r : Fin 512) :
    wrappedColumn t (ix2 (n0 := 512) (n1 := 1) r 0) = wrap (t (ix1 r)) := by
  have e : broadcastInDim S512x1 ![0] bcast_S512_S512x1_0 t (ix2 (n0 := 512) (n1 := 1) r 0) = t (ix1 r) :=
    broadcastInDim_apply _ _ _ _ (ix1 r) (fun a => by match a with | ⟨0, _⟩ => rfl)
  show Scalar.select (IntOp.cmpi .slt (broadcastInDim S512x1 ![0] bcast_S512_S512x1_0 t (ix2 (n0 := 512) (n1 := 1) r 0)) 0#32)
      (IntOp.addi (broadcastInDim S512x1 ![0] bcast_S512_S512x1_0 t (ix2 (n0 := 512) (n1 := 1) r 0)) 768#32)
      (broadcastInDim S512x1 ![0] bcast_S512_S512x1_0 t (ix2 (n0 := 512) (n1 := 1) r 0)) = _
  rw [e]; rfl

/-- The wrapped row at column c is the wrapped entry c. -/
theorem wrappedRow_apply (t : IVec S512 32) (c : Fin 512) :
    wrappedRow t (ix2 (n0 := 1) (n1 := 512) 0 c) = wrap (t (ix1 c)) := by
  have e : broadcastInDim S1x512 ![1] bcast_S512_S1x512_1 t (ix2 (n0 := 1) (n1 := 512) 0 c) = t (ix1 c) :=
    broadcastInDim_apply _ _ _ _ (ix1 c) (fun a => by match a with | ⟨0, _⟩ => rfl)
  show Scalar.select (IntOp.cmpi .slt (broadcastInDim S1x512 ![1] bcast_S512_S1x512_1 t (ix2 (n0 := 1) (n1 := 512) 0 c)) 0#32)
      (IntOp.addi (broadcastInDim S1x512 ![1] bcast_S512_S1x512_1 t (ix2 (n0 := 1) (n1 := 512) 0 c)) 768#32)
      (broadcastInDim S1x512 ![1] bcast_S512_S1x512_1 t (ix2 (n0 := 1) (n1 := 512) 0 c)) = _
  rw [e]; rfl

/-- Entry (r, c, 0) of the table is the wrapped target of r. -/
theorem table_row (t : IVec S512 32) (r c : Fin 512) :
    table t (ix3 (n0 := 512) (n1 := 512) (n2 := 2) r c 0) = wrap (t (ix1 r)) := by
  unfold table
  refine (concatenate_pair_apply_left (t := S512x512x2) (s₁ := S512x512x1) (s₂ := S512x512x1) (2 : Fin 3) _ _ _
    (ix3 (n0 := 512) (n1 := 512) (n2 := 2) r c 0) rfl (ix3 (n0 := 512) (n1 := 512) (n2 := 1) r c 0)
    (fun b => by match b with | ⟨0, _⟩ => rfl | ⟨1, _⟩ => rfl | ⟨2, _⟩ => rfl)).trans ?_
  rw [broadcastInDim_apply _ _ _ _ (ix2 (n0 := 512) (n1 := 512) r c) (fun a => by match a with | ⟨0, _⟩ => rfl | ⟨1, _⟩ => rfl)]
  rw [broadcastInDim_apply _ _ _ _ (ix2 (n0 := 512) (n1 := 1) r 0) (fun a => by match a with | ⟨0, _⟩ => rfl | ⟨1, _⟩ => rfl)]
  exact wrappedColumn_apply t r

/-- Entry (r, c, 1) of the table is the wrapped target of c. -/
theorem table_col (t : IVec S512 32) (r c : Fin 512) :
    table t (ix3 (n0 := 512) (n1 := 512) (n2 := 2) r c 1) = wrap (t (ix1 c)) := by
  unfold table
  refine (concatenate_pair_apply_right (t := S512x512x2) (s₁ := S512x512x1) (s₂ := S512x512x1) (2 : Fin 3) _ _ _
    (ix3 (n0 := 512) (n1 := 512) (n2 := 2) r c 1) rfl rfl (ix3 (n0 := 512) (n1 := 512) (n2 := 1) r c 0)
    (fun b hb => by match b with | ⟨0, _⟩ => rfl | ⟨1, _⟩ => rfl | ⟨2, _⟩ => exact absurd rfl hb) rfl).trans ?_
  rw [broadcastInDim_apply _ _ _ _ (ix2 (n0 := 512) (n1 := 512) r c) (fun a => by match a with | ⟨0, _⟩ => rfl | ⟨1, _⟩ => rfl)]
  rw [broadcastInDim_apply _ _ _ _ (ix2 (n0 := 1) (n1 := 512) 0 c) (fun a => by match a with | ⟨0, _⟩ => rfl | ⟨1, _⟩ => rfl)]
  exact wrappedRow_apply t c

/-- So the table of the reference's targets holds (r + 256, c + 256) at (r, c). -/
theorem table_targets_row (r c : Fin 512) :
    table targets (ix3 (n0 := 512) (n1 := 512) (n2 := 2) r c 0) = BitVec.ofNat 32 (r.val + 256) :=
  (table_row targets r c).trans (wrap_targets r)
theorem table_targets_col (r c : Fin 512) :
    table targets (ix3 (n0 := 512) (n1 := 512) (n2 := 2) r c 1) = BitVec.ofNat 32 (c.val + 256) :=
  (table_col targets r c).trans (wrap_targets c)

end Cert.Insert.RefTerms

end
-- ==== Proof.RefValueA.lean ====
/-
  The first four stretches of the reference's line, each read as a pure function of what it finds.

  A stretch writes one named value — the positions and their floor quotient by 64; their remainder by 64; that
  remainder's floor quotient by 8; the remainder by 64 once more — and leaves the values written before it, and the
  input array, as they were.
-/
import proofs.«117784_j24111946399874_2_alg».proof.Proof.RefRun
import proofs.«117784_j24111946399874_2_alg».proof.Proof.RefTerms

noncomputable section

namespace Cert.Insert.RefValue

open Cert.ReferenceIdeal Cert.ReferenceIdeal.Gen Idealize.ShloMosaic Idealize.ShloMosaic.TcCoe Idealize.SL.Sem
open Idealize.ShloMosaic.StableHlo Cert.Insert.RefRun Cert.Insert.RefTerms

variable (W : Valuation τ sig (Elt Ideal))

/-! ## The positions and their floor quotient by 64 -/

theorem ops1_v0 : after ops1 W (main_v0 : DevRef τ sig) = positions := by
  unfold ops1 floorDivideOps
  simp only [List.cons_append, List.nil_append]
  after_results_simp
  rfl
theorem ops1_v1 : after ops1 W (main_v1 : DevRef τ sig) = floorDiv positions (constantI S_ 32 64#32) := by
  unfold ops1 floorDivideOps
  simp only [List.cons_append, List.nil_append]
  after_results_simp
  rfl
theorem ops1_arg0 : after ops1 W (main_arg0 : DevRef τ sig) = W (main_arg0 : DevRef τ sig) := by
  unfold ops1 floorDivideOps
  simp only [List.cons_append, List.nil_append]
  after_results_simp

/-! ## The remainder by 64 -/

theorem ops2_v2 : after ops2 W (main_v2 : DevRef τ sig) = remainder (W (main_v0 : DevRef τ sig)) (constantI S_ 32 64#32) := by
  unfold ops2 remainderOps
  simp only [List.cons_append, List.nil_append]
  after_results_simp
  rfl
theorem ops2_v0 : after ops2 W (main_v0 : DevRef τ sig) = W (main_v0 : DevRef τ sig) := by
  unfold ops2 remainderOps
  simp only [List.cons_append, List.nil_append]
  after_results_simp
theorem ops2_v1 : after ops2 W (main_v1 : DevRef τ sig) = W (main_v1 : DevRef τ sig) := by
  unfold ops2 remainderOps
  simp only [List.cons_append, List.nil_append]
  after_results_simp
theorem ops2_arg0 : after ops2 W (main_arg0 : DevRef τ sig) = W (main_arg0 : DevRef τ sig) := by
  unfold ops2 remainderOps
  simp only [List.cons_append, List.nil_append]
  after_results_simp

/-! ## That remainder's floor quotient by 8 -/

theorem ops3_v3 : after ops3 W (main_v3 : DevRef τ sig) = floorDiv (W (main_v2 : DevRef τ sig)) (constantI S_ 32 8#32) := by
  unfold ops3 floorDivideOps
  simp only [List.cons_append, List.nil_append]
  after_results_simp
  rfl
theorem ops3_v0 : after ops3 W (main_v0 : DevRef τ sig) = W (main_v0 : DevRef τ sig) := by
  unfold ops3 floorDivideOps
  simp only [List.cons_append, List.nil_append]
  after_results_simp
theorem ops3_v1 : after ops3 W (main_v1 : DevRef τ sig) = W (main_v1 : DevRef τ sig) := by
  unfold ops3 floorDivideOps
  simp only [List.cons_append, List.nil_append]
  after_results_simp
theorem ops3_arg0 : after ops3 W (main_arg0 : DevRef τ sig) = W (main_arg0 : DevRef τ sig) := by
  unfold ops3 floorDivideOps
  simp only [List.cons_append, List.nil_append]
  after_results_simp

/-! ## The remainder by 64 again -/

theorem ops4_v4 : after ops4 W (main_v4 : DevRef τ sig) = remainder (W (main_v0 : DevRef τ sig)) (constantI S_ 32 64#32) := by
  unfold ops4 remainderOps
  simp only [List.cons_append, List.nil_append]
  after_results_simp
  rfl
theorem ops4_v1 : after ops4 W (main_v1 : DevRef τ sig) = W (main_v1 : DevRef τ sig) := by
  unfold ops4 remainderOps
  simp only [List.cons_append, List.nil_append]
  after_results_simp
theorem ops4_v3 : after ops4 W (main_v3 : DevRef τ sig) = W (main_v3 : DevRef τ sig) := by
  unfold ops4 remainderOps
  simp only [List.cons_append, List.nil_append]
  after_results_simp
theorem ops4_arg0 : after ops4 W (main_arg0 : DevRef τ sig) = W (main_arg0 : DevRef τ sig) := by
  unfold ops4 remainderOps
  simp only [List.cons_append, List.nil_append]
  after_results_simp

end Cert.Insert.RefValue

end
-- ==== Proof.RefValueB.lean ====
/-
  The last three stretches of the reference's line, each read as a pure function of what it finds.

  The remainder by 8 of the remainder by 64; the target vector put together from the three digits; and the zeros, the
  table of target pairs and the scatter-add of the input into the zeros. Each leaves the input array as it was.
-/
import proofs.«117784_j24111946399874_2_alg».proof.Proof.RefRun
import proofs.«117784_j24111946399874_2_alg».proof.Proof.RefTerms

noncomputable section

namespace Cert.Insert.RefValue

open Cert.ReferenceIdeal Cert.ReferenceIdeal.Gen Idealize.ShloMosaic Idealize.ShloMosaic.TcCoe Idealize.SL.Sem
open Idealize.ShloMosaic.StableHlo Cert.Insert.RefRun Cert.Insert.RefTerms

variable (W : Valuation τ sig (Elt Ideal))

/-! ## The remainder by 8 -/

theorem ops5_v5 : after ops5 W (main_v5 : DevRef τ sig) = remainder (W (main_v4 : DevRef τ sig)) (constantI S_ 32 8#32) := by
  unfold ops5 remainderOps
  simp only [List.cons_append, List.nil_append]
  after_results_simp
  rfl
theorem ops5_v1 : after ops5 W (main_v1 : DevRef τ sig) = W (main_v1 : DevRef τ sig) := by
  unfold ops5 remainderOps
  simp only [List.cons_append, List.nil_append]
  after_results_simp
theorem ops5_v3 : after ops5 W (main_v3 : DevRef τ sig) = W (main_v3 : DevRef τ sig) := by
  unfold ops5 remainderOps
  simp only [List.cons_append, List.nil_append]
  after_results_simp
theorem ops5_arg0 : after ops5 W (main_arg0 : DevRef τ sig) = W (main_arg0 : DevRef τ sig) := by
  unfold ops5 remainderOps
  simp only [List.cons_append, List.nil_append]
  after_results_simp

/-! ## The target vector -/

theorem ops6_v15 : after ops6 W (main_v15 : DevRef τ sig) = combine (W (main_v1 : DevRef τ sig)) (W (main_v3 : DevRef τ sig)) (W (main_v5 : DevRef τ sig)) := by
  unfold ops6
  simp only [List.cons_append, List.nil_append]
  after_results_simp
  rfl
theorem ops6_arg0 : after ops6 W (main_arg0 : DevRef τ sig) = W (main_arg0 : DevRef τ sig) := by
  unfold ops6
  simp only [List.cons_append, List.nil_append]
  after_results_simp

/-! ## The table and the scatter-add -/

theorem ops7_v34 : after ops7 W (main_v34 : DevRef τ sig) = Host.scatterAdd (F := Ideal) (φ := .f32) scatter_S128x768x768_S512x512x2_S128x512x512_0_12_12_2 zeros
      (table (W (main_v15 : DevRef τ sig))) (W (main_arg0 : DevRef τ sig)) := by
  unfold ops7
  simp only [List.cons_append, List.nil_append]
  after_results_simp
  rfl
theorem ops7_arg0 : after ops7 W (main_arg0 : DevRef τ sig) = W (main_arg0 : DevRef τ sig) := by
  unfold ops7
  simp only [List.cons_append, List.nil_append]
  after_results_simp

end Cert.Insert.RefValue

end
-- ==== Proof.RefValue.lean ====
/-
  The reference's run, read: every execution ends with the result buffer at `result` of the input array.

  The whole line is its seven stretches one after another, so the contents after the line are the contents after the
  last stretch, started from the contents after the ones before it. Reading the stretches from the last to the first
  gives the result buffer as the scatter-add of the input into zeros at the table of the target vector, and the target
  vector as the digits' combination of the positions' quotients and remainders: the term `result`.
-/
import proofs.«117784_j24111946399874_2_alg».proof.Proof.RefValueA
import proofs.«117784_j24111946399874_2_alg».proof.Proof.RefValueB

noncomputable section

namespace Cert.Insert.RefValue

open Cert.ReferenceIdeal Cert.ReferenceIdeal.Gen Idealize.ShloMosaic Idealize.ShloMosaic.TcCoe Idealize.SL.Sem
open Idealize.ShloMosaic.StableHlo Cert.Insert.RefRun Cert.Insert.RefTerms

/-- The contents after the whole line are the contents after the seventh stretch, started from the contents after the
    sixth, started from …: the stretches named, none opened. -/
theorem after_ops (V : Valuation τ sig (Elt Ideal)) :
    after ops V = after ops7 (after ops6 (after ops5 (after ops4 (after ops3 (after ops2 (after ops1 V)))))) :=
  (after_append ops1 _ V).trans ((after_append ops2 _ _).trans ((after_append ops3 _ _).trans ((after_append ops4 _ _).trans
    ((after_append ops5 _ _).trans (after_append ops6 ops7 _)))))

/-- After the whole line the result buffer holds `result` of the input array's launch contents. -/
theorem out_eq (V : Valuation τ sig (Elt Ideal)) :
    after ops V (main_v34 : DevRef τ sig) = result (V (main_arg0 : DevRef τ sig)) := by
  rw [after_ops, ops7_v34, ops6_v15, ops6_arg0, ops5_v5, ops5_v1, ops5_v3, ops5_arg0, ops4_v4, ops4_v1, ops4_v3,
    ops4_arg0, ops3_v3, ops3_v0, ops3_v1, ops3_arg0, ops2_v2, ops2_v0, ops2_v1, ops2_arg0, ops1_v0, ops1_v1, ops1_arg0]
  rfl

/-- After the whole line the input array is as launched. -/
theorem arg0_eq (V : Valuation τ sig (Elt Ideal)) :
    after ops V (main_arg0 : DevRef τ sig) = V (main_arg0 : DevRef τ sig) := by
  rw [after_ops, ops7_arg0, ops6_arg0, ops5_arg0, ops4_arg0, ops3_arg0, ops2_arg0, ops1_arg0]

/-- Every weakly fair execution of the reference terminates with the result buffer at `result` of the input array and the
    input array unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v34) = result (m ((c.tc : Thread nD τ).loc main_arg0))
      ∧ r.2.mem ((c.tc : Thread nD τ).loc main_arg0) = m ((c.tc : Thread nD τ).loc main_arg0) :=
  (θ_run defs _ _).mono (fun _ h c => ⟨(h c main_v34).trans (out_eq _), (h c main_arg0).trans (arg0_eq _)⟩)
    (run_main m ρ)

end Cert.Insert.RefValue

end
-- ==== Proof.ScatterValue.lean ====
/-
  The reference's result, entry by entry: the scatter-add of the input into zeros is the input placed in the lower right
  corner of zeros.

  The scatter's updates are indexed by (b, r, c): batch row b of 128, row r and column c of 512. Its one window axis is the
  batch axis, which the scatter leaves alone: on it the window starts at 0 and update (b, r, c) has window coordinate b.
  The row and column axes of the result are the two scattered axes: on them the window has the single coordinate 0 and starts
  at the pair the table of targets holds at (r, c), which is (r + 256, c + 256). So update (b, r, c) lands at the entry
  (b, r + 256, c + 256), always inside the 128×768×768 result, and distinct updates land on distinct entries.

  An entry (b, r', c') of the result with 256 ≤ r' and 256 ≤ c' therefore receives exactly the update
  (b, r' - 256, c' - 256), and any other entry receives none: the sum of the updates landing on it, added to the zero it
  starts from, is the input's entry (b, r' - 256, c' - 256) in the first case and zero in the second.
-/
import proofs.«117784_j24111946399874_2_alg».proof.Proof.RefTerms
import proofs.«117784_j24111946399874_2_alg».proof.Proof.Spec
import Idealize.ShloMosaic.PureOps.Ideal
import Idealize.ShloMosaic.PureOps.Ideal.Laws
import Idealize.ShloMosaic.Lib.ValueIdx

noncomputable section

namespace Cert.Insert.ScatterValue

open Cert.ReferenceIdeal Cert.ReferenceIdeal.Gen Idealize.ShloMosaic Idealize.ShloMosaic.ValueIdx
open Cert.Insert.RefTerms

/-- The scatter's dimension numbers: updates' window axis 0; result axes 1 and 2 inserted, and scattered to by the two
    components of an index vector, which lie along axis 2 of the table. -/
local notation "dims" => scatter_S128x768x768_S512x512x2_S128x512x512_0_12_12_2

/-! ## Where an update lands -/

/-- Update (b, r, c) reads component k of its start index at the table's entry (r, c, k). -/
theorem read_at (b : Fin 128) (r c : Fin 512) (k : Fin 2) :
    ScatterDims.siIdx dims (ix3 (n0 := 128) (n1 := 512) (n2 := 512) b r c) ⟨k.val, k.isLt⟩
      = ix3 (n0 := 512) (n1 := 512) (n2 := 2) r c k := by
  funext a
  match a with
  | ⟨0, _⟩ => rfl
  | ⟨1, _⟩ => rfl
  | ⟨2, _⟩ => rfl

/-- On the batch axis nothing is scattered: the start is 0 and the window coordinate is b. -/
theorem land0 (b : Fin 128) (r c : Fin 512) (idx : IVec S512x512x2 32) :
    ScatterDims.start dims (ix3 (n0 := 128) (n1 := 512) (n2 := 512) b r c) idx (0 : Fin 3)
      + (ScatterDims.window dims (ix3 (n0 := 128) (n1 := 512) (n2 := 512) b r c) (0 : Fin 3) : Int) = (b.val : Int) := by
  unfold ScatterDims.start ScatterDims.window
  rw [dif_neg (by decide), dif_pos (by decide)]
  rw [Int.zero_add]
  rfl

/-- On the row axis the start is the table's entry (r, c, 0), read signed, and the window coordinate is 0. -/
theorem land1 (b : Fin 128) (r c : Fin 512) (idx : IVec S512x512x2 32) :
    ScatterDims.start dims (ix3 (n0 := 128) (n1 := 512) (n2 := 512) b r c) idx (1 : Fin 3)
      + (ScatterDims.window dims (ix3 (n0 := 128) (n1 := 512) (n2 := 512) b r c) (1 : Fin 3) : Int)
      = (idx (ix3 (n0 := 512) (n1 := 512) (n2 := 2) r c 0)).toInt := by
  unfold ScatterDims.start ScatterDims.window
  rw [dif_pos (by decide), dif_neg (by decide)]
  rw [Nat.cast_zero, Int.add_zero]
  exact congrArg (fun i => (idx i).toInt) (read_at b r c 0)

/-- On the column axis the start is the table's entry (r, c, 1), read signed, and the window coordinate is 0. -/
theorem land2 (b : Fin 128) (r c : Fin 512) (idx : IVec S512x512x2 32) :
    ScatterDims.start dims (ix3 (n0 := 128) (n1 := 512) (n2 := 512) b r c) idx (2 : Fin 3)
      + (ScatterDims.window dims (ix3 (n0 := 128) (n1 := 512) (n2 := 512) b r c) (2 : Fin 3) : Int)
      = (idx (ix3 (n0 := 512) (n1 := 512) (n2 := 2) r c 1)).toInt := by
  unfold ScatterDims.start ScatterDims.window
  rw [dif_pos (by decide), dif_neg (by decide)]
  rw [Nat.cast_zero, Int.add_zero]
  exact congrArg (fun i => (idx i).toInt) (read_at b r c 1)

/-- An update whose start plus window coordinate is, on every axis, a coordinate of the entry `i` lands on `i`. -/
theorem lands_of_coords {s si u : Shape} (d : ScatterDims s si u) {w : Nat} (j : u.Idx) (idx : IVec si w) (i : s.Idx)
    (h : ∀ a, d.start j idx a + (d.window j a : Int) = ((i a).val : Int)) : d.resultIdx? j idx = some i := by
  unfold ScatterDims.resultIdx?
  rw [dif_pos (fun a => by rw [h a]; exact ⟨Int.natCast_nonneg _, Int.ofNat_lt.2 (i a).isLt⟩)]
  refine congrArg some (funext fun a => Fin.ext ?_)
  show (d.start j idx a + (d.window j a : Int)).toNat = (i a).val
  rw [h a]; exact Int.toNat_natCast _

/-- Update (b, r, c) lands inside the result, at (b, r + 256, c + 256). -/
theorem landing (b : Fin 128) (r c : Fin 512) :
    ScatterDims.resultIdx? dims (ix3 (n0 := 128) (n1 := 512) (n2 := 512) b r c) (table targets)
      = some (ix3 (n0 := 128) (n1 := 768) (n2 := 768) b ⟨r.val + 256, by omega⟩ ⟨c.val + 256, by omega⟩) := by
  have e0 := land0 b r c (table targets)
  have e1 := (land1 b r c (table targets)).trans ((congrArg BitVec.toInt (table_targets_row r c)).trans (toInt_shifted r))
  have e2 := (land2 b r c (table targets)).trans ((congrArg BitVec.toInt (table_targets_col r c)).trans (toInt_shifted c))
  refine lands_of_coords dims _ _ _ fun a => ?_
  match a with
  | ⟨0, _⟩ => exact e0
  | ⟨1, _⟩ => exact e1
  | ⟨2, _⟩ => exact e2

/-! ## Which updates an entry receives -/

/-- Which updates land on an entry: update (b, r, c) lands on `i` exactly when `i` is (b, r + 256, c + 256). -/
theorem lands_iff (i : Sout.Idx) (b : Fin 128) (r c : Fin 512) :
    ScatterDims.resultIdx? dims (ix3 (n0 := 128) (n1 := 512) (n2 := 512) b r c) (table targets) = some i
      ↔ (i 0).val = b.val ∧ (i 1).val = r.val + 256 ∧ (i 2).val = c.val + 256 := by
  rw [landing]
  constructor
  · intro h
    have h' := Option.some.inj h
    subst h'
    exact ⟨rfl, rfl, rfl⟩
  · rintro ⟨h0, h1, h2⟩
    refine congrArg some (funext fun a => Fin.ext ?_)
    match a with
    | ⟨0, _⟩ => exact h0.symm
    | ⟨1, _⟩ => exact h1.symm
    | ⟨2, _⟩ => exact h2.symm

/-- The array scattered into is zero everywhere. -/
theorem zeros_apply (i : S128x768x768.Idx) : zeros i = 0 := by
  show Ideal.ofBits .f32 0x00000000#32 = 0
  exact Ideal.ofBits_zero_f32

/-- The reference's result is the input placed in the corner of zeros: on an entry of the corner exactly one update
    lands, the input's entry 256 rows up and 256 columns left; on any other entry none does. -/
theorem result_eq (rho : FVec Ideal Cert.ReferenceIdeal.S128x512x512 .f32) :
    Cert.Insert.RefTerms.result rho = Cert.Insert.placed rho := by
  funext i
  unfold RefTerms.result Host.scatterAdd
  rw [Ideal.hostScatterAdd_def]
  unfold Ideal.hostScatterAdd
  rw [zeros_apply, zero_add]
  have hi1 : (i 1).val < 768 := (i 1).isLt
  have hi2 : (i 2).val < 768 := (i 2).isLt
  unfold placed
  by_cases h : 256 ≤ (i 1).val ∧ 256 ≤ (i 2).val
  · rw [if_pos h]
    refine Finset.sum_eq_single _ (fun j hj hne => ?_) (fun hnot => ?_)
    · obtain ⟨b, r, c, rfl⟩ : ∃ (b : Fin 128) (r c : Fin 512), j = ix3 b r c := ⟨j 0, j 1, j 2, eq_ix3 j⟩
      obtain ⟨h0, h1, h2⟩ := (lands_iff i b r c).1 (Finset.mem_filter.1 hj).2
      refine absurd (funext fun a => Fin.ext ?_) hne
      match a with
      | ⟨0, _⟩ => exact h0.symm
      | ⟨1, _⟩ => show r.val = (i 1).val - 256; omega
      | ⟨2, _⟩ => show c.val = (i 2).val - 256; omega
    · exfalso
      apply hnot
      rw [Finset.mem_filter]
      refine ⟨Finset.mem_univ _, (lands_iff i _ _ _).2 ⟨rfl, ?_, ?_⟩⟩
      · show (i 1).val = (i 1).val - 256 + 256; omega
      · show (i 2).val = (i 2).val - 256 + 256; omega
  · rw [if_neg h]
    refine Finset.sum_eq_zero fun j hj => ?_
    obtain ⟨b, r, c, rfl⟩ : ∃ (b : Fin 128) (r c : Fin 512), j = ix3 b r c := ⟨j 0, j 1, j 2, eq_ix3 j⟩
    obtain ⟨h0, h1, h2⟩ := (lands_iff i b r c).1 (Finset.mem_filter.1 hj).2
    exfalso; omega

end Cert.Insert.ScatterValue

end
-- ==== Proof.lean ====
/-
  The kernel and its reference compute the same array: in every batch entry, the 512×512 input matrix placed in the
  lower right corner of a 768×768 matrix of zeros (`Cert.Insert.placed`, Proof/Spec.lean).

  The kernel does it directly: each grid point writes four batch entries' 768×768 blocks by three stores — zeros over
  the top 256 rows, zeros over the left 256 columns of the remaining rows, the loaded input block over the rest — and
  the blocks tile the output (Proof/KernelSide.lean, over the generated frame run and value leg).
  The reference scatter-adds the input into zeros at targets it computes with integer arithmetic: the target of
  position x is (x mod 64) / 8 · 8 + (x mod 64) mod 8 + (x / 64 + 4) · 64, which is x + 256 for each x below 512. So
  update (b, r, c) lands on entry (b, r + 256, c + 256), distinct updates on distinct entries, and on the extended reals
  each entry of the result is zero plus the one update landing on it, or zero plus the empty sum (Proof/RefRun.lean: the
  program as a straight line and its run; Proof/RefValueA.lean, RefValueB.lean, RefValue.lean: what the line leaves in the
  result buffer; Proof/RefTerms.lean: the targets, position by position; Proof/ScatterValue.lean: the scatter-add read
  index by index). No law is used that needs the inputs finite: 0 + x = x holds for every extended real.
  The idealization rewrote nothing, so `preserves` asks nothing; the three frames are the generated frame runs and the
  reference's run with the result dropped.
-/
import proofs.«117784_j24111946399874_2_alg».proof.Defs
import proofs.«117784_j24111946399874_2_alg».proof.Proof.Gen.Kernel
import proofs.«117784_j24111946399874_2_alg».proof.Proof.Gen.Kernel.Skeleton
import proofs.«117784_j24111946399874_2_alg».proof.Proof.Gen.Kernel.Launch
import proofs.«117784_j24111946399874_2_alg».proof.Proof.Gen.Kernel.Points
import proofs.«117784_j24111946399874_2_alg».proof.Proof.Gen.Kernel.Frame
import proofs.«117784_j24111946399874_2_alg».proof.Proof.Gen.KernelIdeal
import proofs.«117784_j24111946399874_2_alg».proof.Proof.Gen.KernelIdeal.Skeleton
import proofs.«117784_j24111946399874_2_alg».proof.Proof.Gen.KernelIdeal.Launch
import proofs.«117784_j24111946399874_2_alg».proof.Proof.Gen.KernelIdeal.Points
import proofs.«117784_j24111946399874_2_alg».proof.Proof.Gen.KernelIdeal.Frame
import proofs.«117784_j24111946399874_2_alg».proof.Proof.Gen.KernelIdeal.Value
import proofs.«117784_j24111946399874_2_alg».proof.Proof.Gen.ReferenceIdeal
import proofs.«117784_j24111946399874_2_alg».proof.Proof.Gen.Pre_finite_inputs
import proofs.«117784_j24111946399874_2_alg».proof.Proof.KernelSide
import proofs.«117784_j24111946399874_2_alg».proof.Proof.RefValue
import proofs.«117784_j24111946399874_2_alg».proof.Proof.ScatterValue
import Idealize.ShloMosaic.Adequacy
import Idealize.ShloMosaic.Init

noncomputable section

namespace Cert.Proof

open Idealize.ShloMosaic Idealize.SL.Sem

/-- The kernel as printed runs and leaves its argument alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its argument alone: its run, the result dropped. -/
theorem frame_reference : Cert.frame_ReferenceIdeal := fun m ρ _ =>
  (θ_run Cert.ReferenceIdeal.defs _ _).mono (fun _ h c => (h c).2) (Cert.Insert.RefValue.run m ρ)

/-- The idealization rewrote no operation. -/
theorem preserves : Cert.preserves_Kernel_KernelIdeal := trivial

/-- From agreeing inputs both programs end with the input placed in the corner of zeros: the kernel's blocks are the
    blocks of that array, and the reference's scatter-add is that array index by index. -/
theorem algebraic : Cert.algebraic_KernelIdeal_ReferenceIdeal := by
  intro m ρ m' ρ' _ hagree
  refine ⟨_, Cert.Insert.KernelSide.run m ρ, ?_⟩
  refine (θ_run Cert.ReferenceIdeal.defs _ _).mono (fun _ h c => ⟨(h c).1.trans ?_, (h c).2⟩)
    (Cert.Insert.RefValue.run m' ρ')
  rw [hagree c]
  exact Cert.Insert.ScatterValue.result_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
